-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg19 : FVec F S64 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg15 : FVec F S128 .f32) (main_arg16 : FVec F S128 .f32) (main_arg17 : FVec F S128 .f32) (main_arg18 : FVec F S128x64 .f32) (main_arg19 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x64 .f32) (main_arg19 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : FVec F S128x64 .f32) (main_arg19 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 65
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S100000x128, .f32⟩
  | .hbm, ⟨35, _⟩ => ⟨S800000x1, .i32⟩
  | .hbm, ⟨36, _⟩ => ⟨S100000x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S100000x128, .f32⟩
  | .hbm, ⟨55, _⟩ => ⟨S800000x1, .i32⟩
  | .hbm, ⟨56, _⟩ => ⟨S100000x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x64, .f32⟩
  | .hbm, ⟨64, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S4000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x64.size a ≤ S128x64.size a
  hwx1_10 : ∀ i : grid1.Coords, EltTy.bits .f32 = 32 ∨ (Rect.block (s := S128x64) S128x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4000x64.size a ≤ S100000x64.size a
  hwx1_12 : ∀ i : grid1.Coords, EltTy.bits .f32 = 32 ∨ (Rect.block (s := S100000x64) S4000x64.size (cc1_transform_12 i) (hinb1_12 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S128x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S4000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S100000x128, .f32⟩
  | .hbm, ⟨35, _⟩ => ⟨S800000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S100000x128, .f32⟩
  | .hbm, ⟨79, _⟩ => ⟨S800000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call0_cst : Ref sig .tc := ⟨.hbm, 42, rfl⟩
abbrev main_call0_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_c_2 : Ref sig .tc := ⟨.hbm, 68, rfl⟩
abbrev main_v40 : Ref sig .tc := ⟨.hbm, 69, rfl⟩
abbrev main_v41 : Ref sig .tc := ⟨.hbm, 70, rfl⟩
abbrev main_c_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_4 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call2_cst : Ref sig .tc := ⟨.hbm, 86, rfl⟩
abbrev main_call2_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_5 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result kept. Every weakly fair execution of the program terminates without a
  fault; the result array ends holding what the second region's write-backs leave in it (the program's buffer contents
  after its last segment, read at the result), and every argument array ends as launched. The contents after each
  segment are a fold through the program: the first host stretch from the launch memory, the first region's arrays
  at what its pipeline leaves, the second host stretch from there, the second region's arrays at what its pipeline
  leaves.
-/
import proofs.«124534_j28956669510067_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's four segments, read against the final state at the result array and at every argument:
    the final state holds, at every unscoped buffer, the contents after the last segment. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.KernelIdeal.KRun

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«124534_j28956669510067_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.Spec.lean ====
/-
  One graph-isomorphism block, entry by entry, on the extended reals.

  A node's hidden row is the sum of its own feature row and the sum of its in-neighbours' rows (the neighbour sum is a
  parameter here: `agg`). The block's perceptron is a hidden layer (contract with `Wa`, add `ba`, clamp at the zero
  word's value) followed by an unclamped layer (`Wb`, `bb`); evaluation-mode batch normalisation then maps an entry `h`
  of column `q` to `(h - m q) * rsqrt (v q + eps) * g q + be q`, with `eps` the extended real the f32 word 0x3727C5AC
  denotes. The first block clamps the normalised entry at zero; the second feeds it to the output layer (`Wf`, `bf`).

  Row `p` of either block depends on row `p` of `agg` and of `x` alone, so re-indexing the rows of both re-indexes the
  rows of the result (by unfolding): a block of rows can be computed on its own. Any row count.
-/
import proofs.«124534_j28956669510067_1_alg».proof.Proof.LibDenseLayer

noncomputable section

open scoped BigOperators

namespace Cert.Bridge.Gin

open Idealize.ShloMosaic Idealize.ShloMosaic.ValueIdx Cert.Bridge

variable {M M' K N : Nat}

/-- The variance offset of the normalisation: the extended real the f32 word 0x3727C5AC denotes. -/
abbrev eps : EReal := Ideal.ofBits .f32 0x3727C5AC#32

/-- Evaluation-mode batch normalisation of one entry: centre, scale by the reciprocal root of the offset variance,
    then the affine map. -/
def bn (h m v g be : EReal) : EReal := (h - m) * Ideal.rsqrt (v + eps) * g + be

/-- The block's perceptron on the hidden rows `agg + x`: a hidden layer, then an unclamped layer. -/
def mlp (agg x : Fin M → Fin 128 → EReal) (Wa : Fin 128 → Fin 128 → EReal) (ba : Fin 128 → EReal)
    (Wb : Fin 128 → Fin 128 → EReal) (bb : Fin 128 → EReal) : Fin M → Fin 128 → EReal :=
  Spec.head (Spec.layer (fun p k => agg p k + x p k) Wa ba) Wb bb

/-- The perceptron's output, normalised column by column. -/
def normed (agg x : Fin M → Fin 128 → EReal) (Wa : Fin 128 → Fin 128 → EReal) (ba : Fin 128 → EReal)
    (Wb : Fin 128 → Fin 128 → EReal) (bb g be m v : Fin 128 → EReal) : Fin M → Fin 128 → EReal :=
  fun p q => bn (mlp agg x Wa ba Wb bb p q) (m q) (v q) (g q) (be q)

/-- The first block: the normalised perceptron output, clamped below at the zero word's value. -/
def block1 (agg x : Fin M → Fin 128 → EReal) (Wa : Fin 128 → Fin 128 → EReal) (ba : Fin 128 → EReal)
    (Wb : Fin 128 → Fin 128 → EReal) (bb g be m v : Fin 128 → EReal) : Fin M → Fin 128 → EReal :=
  fun p q => max (normed agg x Wa ba Wb bb g be m v p q) Spec.floor0

/-- The second block: the normalised perceptron output through the output layer. -/
def block2 (agg x : Fin M → Fin 128 → EReal) (Wa : Fin 128 → Fin 128 → EReal) (ba : Fin 128 → EReal)
    (Wb : Fin 128 → Fin 128 → EReal) (bb g be m v : Fin 128 → EReal) (Wf : Fin 128 → Fin 64 → EReal) (bf : Fin 64 → EReal) :
    Fin M → Fin 64 → EReal :=
  Spec.head (normed agg x Wa ba Wb bb g be m v) Wf bf

/-- Re-indexing the rows of the neighbour sums and of the features re-indexes the rows of the first block. -/
theorem block1_rows (σ : Fin M' → Fin M) (agg x : Fin M → Fin 128 → EReal) (Wa : Fin 128 → Fin 128 → EReal) (ba : Fin 128 → EReal)
    (Wb : Fin 128 → Fin 128 → EReal) (bb g be m v : Fin 128 → EReal) :
    block1 (fun r => agg (σ r)) (fun r => x (σ r)) Wa ba Wb bb g be m v = fun r => block1 agg x Wa ba Wb bb g be m v (σ r) := rfl

/-- The same for the second block. -/
theorem block2_rows (σ : Fin M' → Fin M) (agg x : Fin M → Fin 128 → EReal) (Wa : Fin 128 → Fin 128 → EReal) (ba : Fin 128 → EReal)
    (Wb : Fin 128 → Fin 128 → EReal) (bb g be m v : Fin 128 → EReal) (Wf : Fin 128 → Fin 64 → EReal) (bf : Fin 64 → EReal) :
    block2 (fun r => agg (σ r)) (fun r => x (σ r)) Wa ba Wb bb g be m v Wf bf
      = fun r => block2 agg x Wa ba Wb bb g be m v Wf bf (σ r) := rfl

/-! ## Arrays and functions of coordinates -/

/-- A vector as a function of its one coordinate. -/
abbrev vec (b : (⟨1, ![N]⟩ : Shape).Idx → EReal) : Fin N → EReal := fun q => b (ix1 q)

/-- A function of two coordinates as a matrix. -/
def arr (f : Fin M → Fin N → EReal) : (⟨2, ![M, N]⟩ : Shape).Idx → EReal := fun i => f (i 0) (i 1)

theorem arr_ix2 (f : Fin M → Fin N → EReal) (p : Fin M) (q : Fin N) : arr f (ix2 p q) = f p q := rfl

/-- A matrix is determined by its entries at coordinate pairs. -/
theorem arr_ext (A : (⟨2, ![M, N]⟩ : Shape).Idx → EReal) (f : Fin M → Fin N → EReal)
    (h : ∀ (p : Fin M) (q : Fin N), A (ix2 p q) = f p q) : A = arr f := by
  funext i
  obtain ⟨p, q, rfl⟩ : ∃ (p : Fin M) (q : Fin N), i = ix2 p q := ⟨i 0, i 1, eq_ix2 i⟩
  exact h p q

theorem mat_arr (f : Fin M → Fin N → EReal) : LayerAt.mat (arr f) = f := rfl

end Cert.Bridge.Gin

end
-- ==== Proof.Block1.lean ====
/-
  What the first region's body leaves in its output block, entry by entry.

  The body loads the block of neighbour sums and the block of features (4000 rows each), the two weight matrices and the
  six [1, 128] rows (two biases, the normalisation's scale, shift, mean and variance), and stores one value: the hidden
  rows through the perceptron, normalised column by column, clamped at zero. Its entry (p, q) is the first block of the
  specification at row p of the loaded blocks: a function of row p alone.
-/
import proofs.«124534_j28956669510067_1_alg».proof.Proof.Gen.KernelIdeal.Frame
import proofs.«124534_j28956669510067_1_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.ValueIdx Cert.Bridge Cert.Bridge.LayerAt

theorem hz : (![0, 0] : Fin 2 → Nat) = fun _ => 0 := funext fun a => by fin_cases a <;> rfl

/-- The body's matrix products contract the left operand's columns with the right operand's rows. -/
theorem dot128 : dot_S4000x128_S128x128_S4000x128_1_0_0_1_n_n = DotDims.plain 4000 128 128 := rfl

/-- The output block after the body is the stored value: the two payloads of the loaded blocks. -/
theorem out0_eq {F : FTy → Type} [FloatOps F] (x0 x1 : Vec F S4000x128 .f32) (x2 : Vec F S128x128 .f32) (x3 : Vec F S1x128 .f32)
    (x4 : Vec F S128x128 .f32) (x5 x6 x7 x8 x9 : Vec F S1x128 .f32) :
    out0_10 x0 x1 x2 x3 x4 x5 x6 x7 x8 x9 = k0_pay1 (k0_pay2 x0 x1 x2 x3 x4 x5 x8 x9 x6) x7 := by
  unfold out0_10
  rw [View.canon_unit_zero hz]
  simp only [View.ld_unit_zero (S := S4000x128) hz, View.ld_unit_zero (S := S128x128) hz, View.ld_unit_zero (S := S1x128) hz]

/-- The perceptron on a block of rows, at an entry: the hidden layer's matrix feeds the unclamped layer. -/
theorem mlp_apply (a x : FVec Ideal S4000x128 .f32) (Wa : FVec Ideal S128x128 .f32) (ba : FVec Ideal S1x128 .f32)
    (Wb : FVec Ideal S128x128 .f32) (bb : FVec Ideal S1x128 .f32) (p : Fin 4000) (q : Fin 128) :
    addf (matmul dot_S4000x128_S128x128_S4000x128_1_0_0_1_n_n none
        (truncf .bf16 (maximumf (addf (matmul dot_S4000x128_S128x128_S4000x128_1_0_0_1_n_n none
            (truncf .bf16 (addf a x) bitsLt_bf16_f32) (truncf .bf16 Wa bitsLt_bf16_f32) (constant S4000x128 .f32 0x00000000#32))
          (broadcastTo S4000x128 ba broadcasts_S1x128_S4000x128))
          (broadcast S4000x128 (Scalar.ofBits (F := Ideal) .f32 0x00000000#32))) bitsLt_bf16_f32)
        (truncf .bf16 Wb bitsLt_bf16_f32) (constant S4000x128 .f32 0x00000000#32))
      (broadcastTo S4000x128 bb broadcasts_S1x128_S4000x128) (ix2 p q)
      = Gin.mlp (mat a) (mat x) (mat Wa) (row ba) (mat Wb) (row bb) p q := by
  rw [dot128, LayerAt.head_apply, LayerAt.layer_mat]
  rfl

/-- The centred and scaled perceptron output at an entry (the normalisation before its shift). -/
theorem pay2_apply (v0 v2 : FVec Ideal S4000x128 .f32) (v5 : FVec Ideal S128x128 .f32) (v8 : FVec Ideal S1x128 .f32)
    (v15 : FVec Ideal S128x128 .f32) (v18 v22 v26 v33 : FVec Ideal S1x128 .f32) (p : Fin 4000) (q : Fin 128) :
    k0_pay2 (F := Ideal) v0 v2 v5 v8 v15 v18 v22 v26 v33 (ix2 p q)
      = (Gin.mlp (mat v0) (mat v2) (mat v5) (row v8) (mat v15) (row v18) p q - row v22 q)
          * Ideal.rsqrt (row v26 q + Gin.eps) * row v33 q := by
  unfold k0_pay2
  simp only [shapeCast_self]
  rw [mulf_apply, mulf_apply, subf_apply, mlp_apply, broadcastTo_1b_ab_apply, broadcastTo_1b_ab_apply, broadcastTo_1b_ab_apply]
  rfl

/-- THE BLOCK'S ENTRY: what the body leaves at (p, q) is the specification's first block at row p of the loaded blocks. -/
theorem out0_apply (x0 x1 : Vec Ideal S4000x128 .f32) (x2 : Vec Ideal S128x128 .f32) (x3 : Vec Ideal S1x128 .f32)
    (x4 : Vec Ideal S128x128 .f32) (x5 x6 x7 x8 x9 : Vec Ideal S1x128 .f32) (p : Fin 4000) (q : Fin 128) :
    out0_10 (F := Ideal) x0 x1 x2 x3 x4 x5 x6 x7 x8 x9 (ix2 p q)
      = Gin.block1 (mat x0) (mat x1) (mat x2) (row x3) (mat x4) (row x5) (row x6) (row x7) (row x8) (row x9) p q := by
  rw [out0_eq]
  unfold k0_pay1
  simp only [shapeCast_self]
  rw [maximumf_apply, addf_apply, pay2_apply, broadcastTo_1b_ab_apply, broadcast_apply]
  rfl

end Cert.KernelIdeal.Blocks

end
-- ==== Proof.Region0.lean ====
/-
  The first region's result array as one function of the arrays it finds.

  The grid has 25 points; point t stages rows 4000 t … 4000 t + 3999 of the neighbour sums and of the features, the
  whole of every weight matrix and parameter row, and writes back rows 4000 t … 4000 t + 3999 of the result. What the
  body leaves at entry (p, q) of its block is the specification's first block at row p of the loaded blocks, and row p
  of a loaded block is row 4000 t + p of its array, so the written block is rows 4000 t … of the first block of the
  whole arrays. The 25 blocks tile the 100000 rows (row r is in block r / 4000), so the array ends holding the first
  block of the whole arrays.
-/
import proofs.«124534_j28956669510067_1_alg».proof.Proof.Gen.KernelIdeal.Frame
import proofs.«124534_j28956669510067_1_alg».proof.Proof.Spec
import Idealize.ShloMosaic.Lib.Pipeline.Value
import Idealize.ShloMosaic.Lib.ValueIdx
import Idealize.ShloMosaic.Lib.ValueLayout
import proofs.«124534_j28956669510067_1_alg».proof.Proof.Block1

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.Bridge Cert.Bridge.LayerAt
open Idealize.ShloMosaic.Pipeline (Dat)

variable (V : (c : Dev nD) → (b : Ref sig .tc) → Buf (Elt Ideal) ((c : Thread nD τ).loc b))

/-- The first block of the arrays the region finds, as a whole array. -/
def G (c : Dev nD) : S100000x128.Idx → EReal :=
  Gin.arr (Gin.block1 (mat (V c main_v13)) (mat (V c main_arg0)) (mat (V c main_arg2)) (row (V c main_v14))
    (mat (V c main_arg4)) (row (V c main_v15)) (row (V c main_v16)) (row (V c main_v17)) (row (V c main_v18)) (row (V c main_v19)))

/-- The printed index maps over the grid: the two row windows and the output move with the point along the rows; every
    other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

theorem N25 : cfg0.N = 25 := N_0

theorem t_lt (t : Fin cfg0.N) : t.val < 25 := lt_of_lt_of_eq t.isLt N25

/-- Row p of point t's block is row 4000 t + p of the array. -/
def rowOf (t : Fin cfg0.N) (p : Fin 4000) : Fin 100000 :=
  ⟨t.val * 4000 + p.val, by have h := t_lt t; have hp := p.isLt; omega⟩

/-- Row p of the neighbour-sum block at point t is row 4000 t + p of the neighbour sums. -/
theorem iblk_agg (c : Dev nD) (t : Fin cfg0.N) : mat (iblk0 V c 0 t) = fun r => mat (V c main_v13) (rowOf t r) := by
  funext p k
  show iblk0 V c 0 t (ix2 p k) = V c main_v13 (ix2 (rowOf t p) k)
  unfold iblk0
  rw [View.read_apply]
  refine congrArg (V c main_v13) ?_
  obtain ⟨e0, e1, -⟩ := idx_facts t
  funext a; apply Fin.ext
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Row p of the feature block at point t is row 4000 t + p of the features. -/
theorem iblk_x (c : Dev nD) (t : Fin cfg0.N) : mat (iblk0 V c 1 t) = fun r => mat (V c main_arg0) (rowOf t r) := by
  funext p k
  show iblk0 V c 1 t (ix2 p k) = V c main_arg0 (ix2 (rowOf t p) k)
  unfold iblk0
  rw [View.read_apply]
  refine congrArg (V c main_arg0) ?_
  obtain ⟨-, -, e0, e1, -⟩ := idx_facts t
  funext a; apply Fin.ext
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- The first weight matrix is staged whole at every point. -/
theorem iblk_Wa (c : Dev nD) (t : Fin cfg0.N) : mat (iblk0 V c 2 t) = mat (V c main_arg2) := by
  funext p k
  show iblk0 V c 2 t (ix2 p k) = V c main_arg2 (ix2 p k)
  unfold iblk0
  rw [View.read_apply]
  refine congrArg (V c main_arg2) ?_
  have e : ∀ a : Fin 2, win0_2.index t a = 0 := (idx_facts t).2.2.2.2.2.2.1
  funext a; apply Fin.ext
  match a with
  | ⟨0, _⟩ => show win0_2.index t (0 : Fin 2) * 128 + 1 * p.val = p.val; rw [e 0]; omega
  | ⟨1, _⟩ => show win0_2.index t (1 : Fin 2) * 128 + 1 * k.val = k.val; rw [e 1]; omega

/-- The first bias row is staged whole at every point. -/
theorem iblk_ba (c : Dev nD) (t : Fin cfg0.N) : row (iblk0 V c 3 t) = row (V c main_v14) := by
  funext k
  show iblk0 V c 3 t (ix2 (0 : Fin 1) k) = V c main_v14 (ix2 (0 : Fin 1) k)
  unfold iblk0
  rw [View.read_apply]
  refine congrArg (V c main_v14) ?_
  have e : ∀ a : Fin 2, win0_3.index t a = 0 := (idx_facts t).2.2.2.2.2.2.2.1
  funext a; apply Fin.ext
  match a with
  | ⟨0, _⟩ => show win0_3.index t (0 : Fin 2) * 1 + 1 * ((0 : Fin 1) : Nat) = ((0 : Fin 1) : Nat); rw [e 0]; rfl
  | ⟨1, _⟩ => show win0_3.index t (1 : Fin 2) * 128 + 1 * k.val = k.val; rw [e 1]; omega

/-- The second weight matrix is staged whole at every point. -/
theorem iblk_Wb (c : Dev nD) (t : Fin cfg0.N) : mat (iblk0 V c 4 t) = mat (V c main_arg4) := by
  funext p k
  show iblk0 V c 4 t (ix2 p k) = V c main_arg4 (ix2 p k)
  unfold iblk0
  rw [View.read_apply]
  refine congrArg (V c main_arg4) ?_
  have e : ∀ a : Fin 2, win0_4.index t a = 0 := (idx_facts t).2.2.2.2.2.2.2.2.1
  funext a; apply Fin.ext
  match a with
  | ⟨0, _⟩ => show win0_4.index t (0 : Fin 2) * 128 + 1 * p.val = p.val; rw [e 0]; omega
  | ⟨1, _⟩ => show win0_4.index t (1 : Fin 2) * 128 + 1 * k.val = k.val; rw [e 1]; omega

/-- The second bias row is staged whole at every point. -/
theorem iblk_bb (c : Dev nD) (t : Fin cfg0.N) : row (iblk0 V c 5 t) = row (V c main_v15) := by
  funext k
  show iblk0 V c 5 t (ix2 (0 : Fin 1) k) = V c main_v15 (ix2 (0 : Fin 1) k)
  unfold iblk0
  rw [View.read_apply]
  refine congrArg (V c main_v15) ?_
  have e : ∀ a : Fin 2, win0_5.index t a = 0 := (idx_facts t).2.2.2.2.2.2.2.2.2.1
  funext a; apply Fin.ext
  match a with
  | ⟨0, _⟩ => show win0_5.index t (0 : Fin 2) * 1 + 1 * ((0 : Fin 1) : Nat) = ((0 : Fin 1) : Nat); rw [e 0]; rfl
  | ⟨1, _⟩ => show win0_5.index t (1 : Fin 2) * 128 + 1 * k.val = k.val; rw [e 1]; omega

/-- The normalisation's scale row is staged whole at every point. -/
theorem iblk_g (c : Dev nD) (t : Fin cfg0.N) : row (iblk0 V c 6 t) = row (V c main_v16) := by
  funext k
  show iblk0 V c 6 t (ix2 (0 : Fin 1) k) = V c main_v16 (ix2 (0 : Fin 1) k)
  unfold iblk0
  rw [View.read_apply]
  refine congrArg (V c main_v16) ?_
  have e : ∀ a : Fin 2, win0_6.index t a = 0 := (idx_facts t).2.2.2.2.2.2.2.2.2.2.1
  funext a; apply Fin.ext
  match a with
  | ⟨0, _⟩ => show win0_6.index t (0 : Fin 2) * 1 + 1 * ((0 : Fin 1) : Nat) = ((0 : Fin 1) : Nat); rw [e 0]; rfl
  | ⟨1, _⟩ => show win0_6.index t (1 : Fin 2) * 128 + 1 * k.val = k.val; rw [e 1]; omega

/-- The normalisation's shift row is staged whole at every point. -/
theorem iblk_be (c : Dev nD) (t : Fin cfg0.N) : row (iblk0 V c 7 t) = row (V c main_v17) := by
  funext k
  show iblk0 V c 7 t (ix2 (0 : Fin 1) k) = V c main_v17 (ix2 (0 : Fin 1) k)
  unfold iblk0
  rw [View.read_apply]
  refine congrArg (V c main_v17) ?_
  have e : ∀ a : Fin 2, win0_7.index t a = 0 := (idx_facts t).2.2.2.2.2.2.2.2.2.2.2.1
  funext a; apply Fin.ext
  match a with
  | ⟨0, _⟩ => show win0_7.index t (0 : Fin 2) * 1 + 1 * ((0 : Fin 1) : Nat) = ((0 : Fin 1) : Nat); rw [e 0]; rfl
  | ⟨1, _⟩ => show win0_7.index t (1 : Fin 2) * 128 + 1 * k.val = k.val; rw [e 1]; omega

/-- The normalisation's mean row is staged whole at every point. -/
theorem iblk_m (c : Dev nD) (t : Fin cfg0.N) : row (iblk0 V c 8 t) = row (V c main_v18) := by
  funext k
  show iblk0 V c 8 t (ix2 (0 : Fin 1) k) = V c main_v18 (ix2 (0 : Fin 1) k)
  unfold iblk0
  rw [View.read_apply]
  refine congrArg (V c main_v18) ?_
  have e : ∀ a : Fin 2, win0_8.index t a = 0 := (idx_facts t).2.2.2.2.2.2.2.2.2.2.2.2.1
  funext a; apply Fin.ext
  match a with
  | ⟨0, _⟩ => show win0_8.index t (0 : Fin 2) * 1 + 1 * ((0 : Fin 1) : Nat) = ((0 : Fin 1) : Nat); rw [e 0]; rfl
  | ⟨1, _⟩ => show win0_8.index t (1 : Fin 2) * 128 + 1 * k.val = k.val; rw [e 1]; omega

/-- The normalisation's variance row is staged whole at every point. -/
theorem iblk_v (c : Dev nD) (t : Fin cfg0.N) : row (iblk0 V c 9 t) = row (V c main_v19) := by
  funext k
  show iblk0 V c 9 t (ix2 (0 : Fin 1) k) = V c main_v19 (ix2 (0 : Fin 1) k)
  unfold iblk0
  rw [View.read_apply]
  refine congrArg (V c main_v19) ?_
  have e : ∀ a : Fin 2, win0_9.index t a = 0 := (idx_facts t).2.2.2.2.2.2.2.2.2.2.2.2.2
  funext a; apply Fin.ext
  match a with
  | ⟨0, _⟩ => show win0_9.index t (0 : Fin 2) * 1 + 1 * ((0 : Fin 1) : Nat) = ((0 : Fin 1) : Nat); rw [e 0]; rfl
  | ⟨1, _⟩ => show win0_9.index t (1 : Fin 2) * 128 + 1 * k.val = k.val; rw [e 1]; omega

/-- WHAT POINT t WRITES BACK is block t of the first block of the whole arrays. -/
theorem flushed (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  funext j
  obtain ⟨p, q, rfl⟩ : ∃ (p : Fin 4000) (q : Fin 128), j = ix2 p q := ⟨j 0, j 1, eq_ix2 j⟩
  rw [View.read_apply]
  have hemb : ((cfg0.win 10).blk t).view.emb (ix2 p q) = ix2 (rowOf t p) q := by
    obtain ⟨-, -, -, -, e0, e1, -⟩ := idx_facts t
    funext a; apply Fin.ext
    match a with
    | ⟨0, _⟩ => show win0_10.index t (0 : Fin 2) * 4000 + 1 * p.val = t.val * 4000 + p.val; rw [e0]; omega
    | ⟨1, _⟩ => show win0_10.index t (1 : Fin 2) * 128 + 1 * q.val = q.val; rw [e1]; omega
  rw [hemb]
  show out0_10 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (ix2 p q) = G V c (ix2 (rowOf t p) q)
  rw [Blocks.out0_apply, iblk_agg, iblk_x, iblk_Wa, iblk_ba, iblk_Wb, iblk_bb, iblk_g, iblk_be, iblk_m, iblk_v, Gin.block1_rows]
  rfl

/-- An index of the array is in point t's block iff each coordinate is in the block's range on its axis. -/
theorem mem_blk (t : Fin cfg0.N) (i : S100000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v20).slice (win0_10.rect t)).set ↔ _
  rw [View.set_slice_whole, Rect.mem_set_unit]
  exact Iff.rfl

/-- Row r of the array is in the block of point r / 4000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have ht : (i 0).val / 4000 < cfg0.N := by rw [N25]; omega
  refine ⟨⟨(i 0).val / 4000, ht⟩, flush0_10 _, ?_⟩
  rw [mem_blk]
  obtain ⟨-, -, -, -, e0, e1, -⟩ := idx_facts ⟨(i 0).val / 4000, ht⟩
  intro a
  match a with
  | ⟨0, _⟩ =>
    show win0_10.index ⟨(i 0).val / 4000, ht⟩ (0 : Fin 2) * 4000 ≤ (i 0).val
      ∧ (i 0).val < win0_10.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_10.index ⟨(i 0).val / 4000, ht⟩ (1 : Fin 2) * 128 ≤ (i 1).val
      ∧ (i 1).val < win0_10.index ⟨(i 0).val / 4000, ht⟩ (1 : Fin 2) * 128 + 128
    rw [e1]; omega

/-- THE ARRAY after the region: the first block of the arrays the region found. -/
theorem array (c : Dev nD) : (dat0 V c).arrAt 10 cfg0.N = G V c :=
  (dat0 V c).arrAt_eq_of_cover 10 (G V c) (fun t _ => flushed V c t) (cover)

end Cert.KernelIdeal.Region0

end
-- ==== Proof.Block2.lean ====
/-
  What the second region's body leaves in its output block, entry by entry.

  The body loads the block of neighbour sums and the block of first-block rows (4000 rows each), the two hidden weight
  matrices, six [1, 128] rows (two biases, the normalisation's scale, shift, mean and variance), the output weights
  [128, 64] and the output bias [1, 64], and stores one value: the hidden rows through the perceptron, normalised
  column by column, through the output layer. Its entry (p, q) is the second block of the specification at row p of the
  loaded blocks.
-/
import proofs.«124534_j28956669510067_1_alg».proof.Proof.Gen.KernelIdeal.Frame
import proofs.«124534_j28956669510067_1_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Blocks2

open Cert.KernelIdeal Cert.KernelIdeal.Gen Idealize.ShloMosaic Idealize.ShloMosaic.ValueIdx Cert.Bridge Cert.Bridge.LayerAt

theorem hz : (![0, 0] : Fin 2 → Nat) = fun _ => 0 := funext fun a => by fin_cases a <;> rfl

/-- The body's matrix products contract the left operand's columns with the right operand's rows. -/
theorem dot128 : dot_S4000x128_S128x128_S4000x128_1_0_0_1_n_n = DotDims.plain 4000 128 128 := rfl
theorem dot64 : dot_S4000x128_S128x64_S4000x64_1_0_0_1_n_n = DotDims.plain 4000 128 64 := rfl

/-- The output block after the body is the stored value: the three payloads of the loaded blocks. -/
theorem out1_eq {F : FTy → Type} [FloatOps F] (x0 x1 : Vec F S4000x128 .f32) (x2 : Vec F S128x128 .f32) (x3 : Vec F S1x128 .f32)
    (x4 : Vec F S128x128 .f32) (x5 x6 x7 x8 x9 : Vec F S1x128 .f32) (x10 : Vec F S128x64 .f32) (x11 : Vec F S1x64 .f32) :
    out1_12 x0 x1 x2 x3 x4 x5 x6 x7 x8 x9 x10 x11
      = k1_pay1 (k1_pay2 x0 x1 x2 x3 x4 x5 x8 x9) (k1_pay3 x6) x7 x10 x11 := by
  unfold out1_12
  rw [View.canon_unit_zero hz]
  simp only [View.ld_unit_zero (S := S4000x128) hz, View.ld_unit_zero (S := S128x128) hz, View.ld_unit_zero (S := S1x128) hz,
    View.ld_unit_zero (S := S128x64) hz, View.ld_unit_zero (S := S1x64) hz]

/-- The perceptron on a block of rows, at an entry: the hidden layer's matrix feeds the unclamped layer. -/
theorem mlp_apply (a x : FVec Ideal S4000x128 .f32) (Wa : FVec Ideal S128x128 .f32) (ba : FVec Ideal S1x128 .f32)
    (Wb : FVec Ideal S128x128 .f32) (bb : FVec Ideal S1x128 .f32) (p : Fin 4000) (q : Fin 128) :
    addf (matmul dot_S4000x128_S128x128_S4000x128_1_0_0_1_n_n none
        (truncf .bf16 (maximumf (addf (matmul dot_S4000x128_S128x128_S4000x128_1_0_0_1_n_n none
            (truncf .bf16 (addf a x) bitsLt_bf16_f32) (truncf .bf16 Wa bitsLt_bf16_f32) (constant S4000x128 .f32 0x00000000#32))
          (broadcastTo S4000x128 ba broadcasts_S1x128_S4000x128))
          (broadcast S4000x128 (Scalar.ofBits (F := Ideal) .f32 0x00000000#32))) bitsLt_bf16_f32)
        (truncf .bf16 Wb bitsLt_bf16_f32) (constant S4000x128 .f32 0x00000000#32))
      (broadcastTo S4000x128 bb broadcasts_S1x128_S4000x128) (ix2 p q)
      = Gin.mlp (mat a) (mat x) (mat Wa) (row ba) (mat Wb) (row bb) p q := by
  rw [dot128, LayerAt.head_apply, LayerAt.layer_mat]
  rfl

/-- The centred perceptron output times the reciprocal root of the offset variance, at an entry. -/
theorem pay2_apply (v0 v2 : FVec Ideal S4000x128 .f32) (v6 : FVec Ideal S128x128 .f32) (v9 : FVec Ideal S1x128 .f32)
    (v16 : FVec Ideal S128x128 .f32) (v19 v23 v27 : FVec Ideal S1x128 .f32) (p : Fin 4000) (q : Fin 128) :
    k1_pay2 (F := Ideal) v0 v2 v6 v9 v16 v19 v23 v27 (ix2 p q)
      = (Gin.mlp (mat v0) (mat v2) (mat v6) (row v9) (mat v16) (row v19) p q - row v23 q)
          * Ideal.rsqrt (row v27 q + Gin.eps) := by
  unfold k1_pay2
  simp only [shapeCast_self]
  rw [mulf_apply, subf_apply, mlp_apply, broadcastTo_1b_ab_apply, broadcastTo_1b_ab_apply]
  rfl

/-- The scale row spread over the block's rows, at an entry. -/
theorem pay3_apply (v34 : FVec Ideal S1x128 .f32) (p : Fin 4000) (q : Fin 128) :
    k1_pay3 (F := Ideal) v34 (ix2 p q) = row v34 q := by
  unfold k1_pay3
  simp only [shapeCast_self]
  rw [broadcastTo_1b_ab_apply]

/-- The output layer's input matrix is the normalised perceptron output of the loaded blocks. -/
theorem normed_mat (x0 x1 : Vec Ideal S4000x128 .f32) (x2 : Vec Ideal S128x128 .f32) (x3 : Vec Ideal S1x128 .f32)
    (x4 : Vec Ideal S128x128 .f32) (x5 x6 x7 x8 x9 : Vec Ideal S1x128 .f32) :
    mat (truncf .bf16 (addf (mulf (k1_pay2 (F := Ideal) x0 x1 x2 x3 x4 x5 x8 x9) (k1_pay3 (F := Ideal) x6))
        (broadcastTo S4000x128 x7 broadcasts_S1x128_S4000x128)) bitsLt_bf16_f32)
      = Gin.normed (mat x0) (mat x1) (mat x2) (row x3) (mat x4) (row x5) (row x6) (row x7) (row x8) (row x9) := by
  funext p k
  show addf (mulf (k1_pay2 (F := Ideal) x0 x1 x2 x3 x4 x5 x8 x9) (k1_pay3 (F := Ideal) x6))
        (broadcastTo S4000x128 x7 broadcasts_S1x128_S4000x128) (ix2 p k) = _
  rw [addf_apply, mulf_apply, pay2_apply, pay3_apply, broadcastTo_1b_ab_apply]
  rfl

/-- THE BLOCK'S ENTRY: what the body leaves at (p, q) is the specification's second block at row p of the loaded blocks. -/
theorem out1_apply (x0 x1 : Vec Ideal S4000x128 .f32) (x2 : Vec Ideal S128x128 .f32) (x3 : Vec Ideal S1x128 .f32)
    (x4 : Vec Ideal S128x128 .f32) (x5 x6 x7 x8 x9 : Vec Ideal S1x128 .f32) (x10 : Vec Ideal S128x64 .f32) (x11 : Vec Ideal S1x64 .f32)
    (p : Fin 4000) (q : Fin 64) :
    out1_12 (F := Ideal) x0 x1 x2 x3 x4 x5 x6 x7 x8 x9 x10 x11 (ix2 p q)
      = Gin.block2 (mat x0) (mat x1) (mat x2) (row x3) (mat x4) (row x5) (row x6) (row x7) (row x8) (row x9) (mat x10) (row x11) p q := by
  rw [out1_eq]
  unfold k1_pay1
  simp only [shapeCast_self]
  rw [dot64, LayerAt.head_apply, normed_mat]
  rfl

end Cert.KernelIdeal.Blocks2

end
-- ==== Proof.Region1.lean ====
/-
  The second region's result array as one function of the arrays it finds.

  The grid has 25 points; point t stages rows 4000 t … 4000 t + 3999 of the neighbour sums and of the first block's
  rows, the whole of every weight matrix and parameter row, and writes back rows 4000 t … 4000 t + 3999 of the
  [100000, 64] result. What the body leaves at entry (p, q) of its block is the specification's second block at row p
  of the loaded blocks, and row p of a loaded block is row 4000 t + p of its array, so the written block is rows
  4000 t … of the second block of the whole arrays. The 25 blocks tile the 100000 rows (row r is in block r / 4000), so
  the array ends holding the second block of the whole arrays.
-/
import proofs.«124534_j28956669510067_1_alg».proof.Proof.Gen.KernelIdeal.Frame
import proofs.«124534_j28956669510067_1_alg».proof.Proof.Spec
import Idealize.ShloMosaic.Lib.Pipeline.Value
import Idealize.ShloMosaic.Lib.ValueIdx
import Idealize.ShloMosaic.Lib.ValueLayout
import proofs.«124534_j28956669510067_1_alg».proof.Proof.Block2

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.Bridge Cert.Bridge.LayerAt
open Idealize.ShloMosaic.Pipeline (Dat)

variable (V : (c : Dev nD) → (b : Ref sig .tc) → Buf (Elt Ideal) ((c : Thread nD τ).loc b))

/-- The second block of the arrays the region finds, as a whole array. -/
def G (c : Dev nD) : S100000x64.Idx → EReal :=
  Gin.arr (Gin.block2 (mat (V c main_v30)) (mat (V c main_v20)) (mat (V c main_arg10)) (row (V c main_v31))
    (mat (V c main_arg12)) (row (V c main_v32)) (row (V c main_v33)) (row (V c main_v34)) (row (V c main_v35)) (row (V c main_v36))
    (mat (V c main_arg18)) (row (V c main_v37)))

/-- The printed index maps over the grid: the two row windows and the output move with the point along the rows; every
    other window stays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_12.index t (0 : Fin 2) = t.val ∧ win1_12.index t (1 : Fin 2) = 0
    ∧ (∀ a : Fin 2, win1_2.index t a = 0) ∧ (∀ a : Fin 2, win1_3.index t a = 0) ∧ (∀ a : Fin 2, win1_4.index t a = 0)
    ∧ (∀ a : Fin 2, win1_5.index t a = 0) ∧ (∀ a : Fin 2, win1_6.index t a = 0) ∧ (∀ a : Fin 2, win1_7.index t a = 0)
    ∧ (∀ a : Fin 2, win1_8.index t a = 0) ∧ (∀ a : Fin 2, win1_9.index t a = 0) ∧ (∀ a : Fin 2, win1_10.index t a = 0)
    ∧ (∀ a : Fin 2, win1_11.index t a = 0) :=
  (by decide +kernel : ∀ t : Fin grid1.N, _)

theorem N25 : cfg1.N = 25 := N_1

theorem t_lt (t : Fin cfg1.N) : t.val < 25 := lt_of_lt_of_eq t.isLt N25

/-- Row p of point t's block is row 4000 t + p of the array. -/
def rowOf (t : Fin cfg1.N) (p : Fin 4000) : Fin 100000 :=
  ⟨t.val * 4000 + p.val, by have h := t_lt t; have hp := p.isLt; omega⟩

/-- Row p of the neighbour-sum block at point t is row 4000 t + p of the neighbour sums. -/
theorem iblk_agg (c : Dev nD) (t : Fin cfg1.N) : mat (iblk1 V c 0 t) = fun r => mat (V c main_v30) (rowOf t r) := by
  funext p k
  show iblk1 V c 0 t (ix2 p k) = V c main_v30 (ix2 (rowOf t p) k)
  unfold iblk1
  rw [View.read_apply]
  refine congrArg (V c main_v30) ?_
  have e0 : win1_0.index t (0 : Fin 2) = t.val := (idx_facts t).1
  have e1 : win1_0.index t (1 : Fin 2) = 0 := (idx_facts t).2.1
  funext a; apply Fin.ext
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- Row p of the block of first-block rows at point t is row 4000 t + p of the first block's result. -/
theorem iblk_x (c : Dev nD) (t : Fin cfg1.N) : mat (iblk1 V c 1 t) = fun r => mat (V c main_v20) (rowOf t r) := by
  funext p k
  show iblk1 V c 1 t (ix2 p k) = V c main_v20 (ix2 (rowOf t p) k)
  unfold iblk1
  rw [View.read_apply]
  refine congrArg (V c main_v20) ?_
  have e0 : win1_1.index t (0 : Fin 2) = t.val := (idx_facts t).2.2.1
  have e1 : win1_1.index t (1 : Fin 2) = 0 := (idx_facts t).2.2.2.1
  funext a; apply Fin.ext
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

/-- The first weight matrix is staged whole at every point. -/
theorem iblk_Wa (c : Dev nD) (t : Fin cfg1.N) : mat (iblk1 V c 2 t) = mat (V c main_arg10) := by
  funext p k
  show iblk1 V c 2 t (ix2 p k) = V c main_arg10 (ix2 p k)
  unfold iblk1
  rw [View.read_apply]
  refine congrArg (V c main_arg10) ?_
  have e : ∀ a : Fin 2, win1_2.index t a = 0 := (idx_facts t).2.2.2.2.2.2.1
  funext a; apply Fin.ext
  match a with
  | ⟨0, _⟩ => show win1_2.index t (0 : Fin 2) * 128 + 1 * p.val = p.val; rw [e 0]; omega
  | ⟨1, _⟩ => show win1_2.index t (1 : Fin 2) * 128 + 1 * k.val = k.val; rw [e 1]; omega

/-- The first bias row is staged whole at every point. -/
theorem iblk_ba (c : Dev nD) (t : Fin cfg1.N) : row (iblk1 V c 3 t) = row (V c main_v31) := by
  funext k
  show iblk1 V c 3 t (ix2 (0 : Fin 1) k) = V c main_v31 (ix2 (0 : Fin 1) k)
  unfold iblk1
  rw [View.read_apply]
  refine congrArg (V c main_v31) ?_
  have e : ∀ a : Fin 2, win1_3.index t a = 0 := (idx_facts t).2.2.2.2.2.2.2.1
  funext a; apply Fin.ext
  match a with
  | ⟨0, _⟩ => show win1_3.index t (0 : Fin 2) * 1 + 1 * ((0 : Fin 1) : Nat) = ((0 : Fin 1) : Nat); rw [e 0]; rfl
  | ⟨1, _⟩ => show win1_3.index t (1 : Fin 2) * 128 + 1 * k.val = k.val; rw [e 1]; omega

/-- The second weight matrix is staged whole at every point. -/
theorem iblk_Wb (c : Dev nD) (t : Fin cfg1.N) : mat (iblk1 V c 4 t) = mat (V c main_arg12) := by
  funext p k
  show iblk1 V c 4 t (ix2 p k) = V c main_arg12 (ix2 p k)
  unfold iblk1
  rw [View.read_apply]
  refine congrArg (V c main_arg12) ?_
  have e : ∀ a : Fin 2, win1_4.index t a = 0 := (idx_facts t).2.2.2.2.2.2.2.2.1
  funext a; apply Fin.ext
  match a with
  | ⟨0, _⟩ => show win1_4.index t (0 : Fin 2) * 128 + 1 * p.val = p.val; rw [e 0]; omega
  | ⟨1, _⟩ => show win1_4.index t (1 : Fin 2) * 128 + 1 * k.val = k.val; rw [e 1]; omega

/-- The second bias row is staged whole at every point. -/
theorem iblk_bb (c : Dev nD) (t : Fin cfg1.N) : row (iblk1 V c 5 t) = row (V c main_v32) := by
  funext k
  show iblk1 V c 5 t (ix2 (0 : Fin 1) k) = V c main_v32 (ix2 (0 : Fin 1) k)
  unfold iblk1
  rw [View.read_apply]
  refine congrArg (V c main_v32) ?_
  have e : ∀ a : Fin 2, win1_5.index t a = 0 := (idx_facts t).2.2.2.2.2.2.2.2.2.1
  funext a; apply Fin.ext
  match a with
  | ⟨0, _⟩ => show win1_5.index t (0 : Fin 2) * 1 + 1 * ((0 : Fin 1) : Nat) = ((0 : Fin 1) : Nat); rw [e 0]; rfl
  | ⟨1, _⟩ => show win1_5.index t (1 : Fin 2) * 128 + 1 * k.val = k.val; rw [e 1]; omega

/-- The normalisation's scale row is staged whole at every point. -/
theorem iblk_g (c : Dev nD) (t : Fin cfg1.N) : row (iblk1 V c 6 t) = row (V c main_v33) := by
  funext k
  show iblk1 V c 6 t (ix2 (0 : Fin 1) k) = V c main_v33 (ix2 (0 : Fin 1) k)
  unfold iblk1
  rw [View.read_apply]
  refine congrArg (V c main_v33) ?_
  have e : ∀ a : Fin 2, win1_6.index t a = 0 := (idx_facts t).2.2.2.2.2.2.2.2.2.2.1
  funext a; apply Fin.ext
  match a with
  | ⟨0, _⟩ => show win1_6.index t (0 : Fin 2) * 1 + 1 * ((0 : Fin 1) : Nat) = ((0 : Fin 1) : Nat); rw [e 0]; rfl
  | ⟨1, _⟩ => show win1_6.index t (1 : Fin 2) * 128 + 1 * k.val = k.val; rw [e 1]; omega

/-- The normalisation's shift row is staged whole at every point. -/
theorem iblk_be (c : Dev nD) (t : Fin cfg1.N) : row (iblk1 V c 7 t) = row (V c main_v34) := by
  funext k
  show iblk1 V c 7 t (ix2 (0 : Fin 1) k) = V c main_v34 (ix2 (0 : Fin 1) k)
  unfold iblk1
  rw [View.read_apply]
  refine congrArg (V c main_v34) ?_
  have e : ∀ a : Fin 2, win1_7.index t a = 0 := (idx_facts t).2.2.2.2.2.2.2.2.2.2.2.1
  funext a; apply Fin.ext
  match a with
  | ⟨0, _⟩ => show win1_7.index t (0 : Fin 2) * 1 + 1 * ((0 : Fin 1) : Nat) = ((0 : Fin 1) : Nat); rw [e 0]; rfl
  | ⟨1, _⟩ => show win1_7.index t (1 : Fin 2) * 128 + 1 * k.val = k.val; rw [e 1]; omega

/-- The normalisation's mean row is staged whole at every point. -/
theorem iblk_m (c : Dev nD) (t : Fin cfg1.N) : row (iblk1 V c 8 t) = row (V c main_v35) := by
  funext k
  show iblk1 V c 8 t (ix2 (0 : Fin 1) k) = V c main_v35 (ix2 (0 : Fin 1) k)
  unfold iblk1
  rw [View.read_apply]
  refine congrArg (V c main_v35) ?_
  have e : ∀ a : Fin 2, win1_8.index t a = 0 := (idx_facts t).2.2.2.2.2.2.2.2.2.2.2.2.1
  funext a; apply Fin.ext
  match a with
  | ⟨0, _⟩ => show win1_8.index t (0 : Fin 2) * 1 + 1 * ((0 : Fin 1) : Nat) = ((0 : Fin 1) : Nat); rw [e 0]; rfl
  | ⟨1, _⟩ => show win1_8.index t (1 : Fin 2) * 128 + 1 * k.val = k.val; rw [e 1]; omega

/-- The normalisation's variance row is staged whole at every point. -/
theorem iblk_v (c : Dev nD) (t : Fin cfg1.N) : row (iblk1 V c 9 t) = row (V c main_v36) := by
  funext k
  show iblk1 V c 9 t (ix2 (0 : Fin 1) k) = V c main_v36 (ix2 (0 : Fin 1) k)
  unfold iblk1
  rw [View.read_apply]
  refine congrArg (V c main_v36) ?_
  have e : ∀ a : Fin 2, win1_9.index t a = 0 := (idx_facts t).2.2.2.2.2.2.2.2.2.2.2.2.2.1
  funext a; apply Fin.ext
  match a with
  | ⟨0, _⟩ => show win1_9.index t (0 : Fin 2) * 1 + 1 * ((0 : Fin 1) : Nat) = ((0 : Fin 1) : Nat); rw [e 0]; rfl
  | ⟨1, _⟩ => show win1_9.index t (1 : Fin 2) * 128 + 1 * k.val = k.val; rw [e 1]; omega

/-- The output weight matrix is staged whole at every point. -/
theorem iblk_Wf (c : Dev nD) (t : Fin cfg1.N) : mat (iblk1 V c 10 t) = mat (V c main_arg18) := by
  funext p k
  show iblk1 V c 10 t (ix2 p k) = V c main_arg18 (ix2 p k)
  unfold iblk1
  rw [View.read_apply]
  refine congrArg (V c main_arg18) ?_
  have e : ∀ a : Fin 2, win1_10.index t a = 0 := (idx_facts t).2.2.2.2.2.2.2.2.2.2.2.2.2.2.1
  funext a; apply Fin.ext
  match a with
  | ⟨0, _⟩ => show win1_10.index t (0 : Fin 2) * 128 + 1 * p.val = p.val; rw [e 0]; omega
  | ⟨1, _⟩ => show win1_10.index t (1 : Fin 2) * 64 + 1 * k.val = k.val; rw [e 1]; omega

/-- The output bias row is staged whole at every point. -/
theorem iblk_bf (c : Dev nD) (t : Fin cfg1.N) : row (iblk1 V c 11 t) = row (V c main_v37) := by
  funext k
  show iblk1 V c 11 t (ix2 (0 : Fin 1) k) = V c main_v37 (ix2 (0 : Fin 1) k)
  unfold iblk1
  rw [View.read_apply]
  refine congrArg (V c main_v37) ?_
  have e : ∀ a : Fin 2, win1_11.index t a = 0 := (idx_facts t).2.2.2.2.2.2.2.2.2.2.2.2.2.2.2
  funext a; apply Fin.ext
  match a with
  | ⟨0, _⟩ => show win1_11.index t (0 : Fin 2) * 1 + 1 * ((0 : Fin 1) : Nat) = ((0 : Fin 1) : Nat); rw [e 0]; rfl
  | ⟨1, _⟩ => show win1_11.index t (1 : Fin 2) * 64 + 1 * k.val = k.val; rw [e 1]; omega

/-- WHAT POINT t WRITES BACK is block t of the second block of the whole arrays. -/
theorem flushed (c : Dev nD) (t : Fin cfg1.N) :
    (dat1 V c).flushed 12 t = ((cfg1.win 12).blk t).view.read (Elt Ideal) (G V c) := by
  show (cfg1.win 12).cut (grid1.coords t) ((dat1 V c).after 12 t) = _
  rw [after1_12]
  funext j
  obtain ⟨p, q, rfl⟩ : ∃ (p : Fin 4000) (q : Fin 64), j = ix2 p q := ⟨j 0, j 1, eq_ix2 j⟩
  rw [View.read_apply]
  have hemb : ((cfg1.win 12).blk t).view.emb (ix2 p q) = ix2 (rowOf t p) q := by
    obtain ⟨-, -, -, -, e0, e1, -⟩ := idx_facts t
    funext a; apply Fin.ext
    match a with
    | ⟨0, _⟩ => show win1_12.index t (0 : Fin 2) * 4000 + 1 * p.val = t.val * 4000 + p.val; rw [e0]; omega
    | ⟨1, _⟩ => show win1_12.index t (1 : Fin 2) * 64 + 1 * q.val = q.val; rw [e1]; omega
  rw [hemb]
  show out1_12 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (ix2 p q) = G V c (ix2 (rowOf t p) q)
  rw [Blocks2.out1_apply, iblk_agg, iblk_x, iblk_Wa, iblk_ba, iblk_Wb, iblk_bb, iblk_g, iblk_be, iblk_m, iblk_v, iblk_Wf, iblk_bf,
    Gin.block2_rows]
  rfl

/-- An index of the array is in point t's block iff each coordinate is in the block's range on its axis. -/
theorem mem_blk (t : Fin cfg1.N) (i : S100000x64.Idx) :
    i ∈ ((cfg1.win 12).blk t).view.set ↔ ∀ a : Fin 2, win1_12.index t a * S4000x64.size a ≤ (i a).val
      ∧ (i a).val < win1_12.index t a * S4000x64.size a + S4000x64.size a := by
  show i ∈ ((View.whole main_v38).slice (win1_12.rect t)).set ↔ _
  rw [View.set_slice_whole, Rect.mem_set_unit]
  exact Iff.rfl

/-- Row r of the array is in the block of point r / 4000. -/
theorem cover (i : S100000x64.Idx) :
    ∃ t : Fin cfg1.N, (cfg1.win 12).flush t = true ∧ i ∈ ((cfg1.win 12).blk t).view.set := by
  have hi0 : (i 0).val < 100000 := (i 0).isLt
  have hi1 : (i 1).val < 64 := (i 1).isLt
  have ht : (i 0).val / 4000 < cfg1.N := by rw [N25]; omega
  refine ⟨⟨(i 0).val / 4000, ht⟩, flush1_12 _, ?_⟩
  rw [mem_blk]
  obtain ⟨-, -, -, -, e0, e1, -⟩ := idx_facts ⟨(i 0).val / 4000, ht⟩
  intro a
  match a with
  | ⟨0, _⟩ =>
    show win1_12.index ⟨(i 0).val / 4000, ht⟩ (0 : Fin 2) * 4000 ≤ (i 0).val
      ∧ (i 0).val < win1_12.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_12.index ⟨(i 0).val / 4000, ht⟩ (1 : Fin 2) * 64 ≤ (i 1).val
      ∧ (i 1).val < win1_12.index ⟨(i 0).val / 4000, ht⟩ (1 : Fin 2) * 64 + 64
    rw [e1]; omega

/-- THE ARRAY after the region: the second block of the arrays the region found. -/
theorem array (c : Dev nD) : (dat1 V c).arrAt 12 cfg1.N = G V c :=
  (dat1 V c).arrAt_eq_of_cover 12 (G V c) (fun t _ => flushed V c t) (cover)

end Cert.KernelIdeal.Region1

end
-- ==== Proof.KHost.lean ====
/-
  The host stretches of the kernel program, read as values.

  Before each of its two regions the program runs a stretch of host operations. The first stretch splits the edge list
  into its two rows (source ids, destination ids), normalises the source ids (a negative id is offset by the node
  count), gathers the node rows at the source ids and scatter-adds them at the destination ids into zeros: the
  NEIGHBOUR SUM of the node rows along the edges. It also reshapes six vectors of 128 entries into one-row matrices.
  The second stretch does the same with the first region's result array in place of the node features, and reshapes
  seven vectors.

  This module reads each buffer a region finds at its entry as a value over the launch memory: the neighbour sum as one
  named term (never opened), an argument no operation writes as what was launched, a reshaped vector as the reshape of
  what was launched; and it names each region's result array in the fold. A reshaped one-row matrix read along its row
  is the vector.
-/
import proofs.«124534_j28956669510067_1_alg».proof.Proof.Gen.KernelIdeal.Frame
import proofs.«124534_j28956669510067_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.KHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge
open Idealize.ShloMosaic.ValueIdx

variable (m : (ℓ : Loc nD τ sig) → Buf (Elt Ideal) ℓ) (ρ : Dev nD → PrngReg)

/-- the source ids and the destination ids of the edges: the two rows of the edge list -/
def src (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000
def dst (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000
/-- THE NEIGHBOUR SUM of node rows h along the edges ei, as the program computes it (never opened anywhere) -/
def nbrSum (h : (⟨S100000x128, .f32⟩ : BufTy).Contents (Elt Ideal)) (ei : (⟨S2x800000, .i32⟩ : BufTy).Contents (Elt Ideal)) : (⟨S100000x128, .f32⟩ : BufTy).Contents (Elt Ideal) :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 (dst ei))
    (Host.gather gather_S100000x128_S800000x1_S800000x128_1_0_n_n_0_1_1128 h
      (broadcastInDim S800000x1 ![0] bcast_S800000_S800000x1_0
        (select (cmpi .slt (src ei) (broadcastInDim S800000 ![] bcast_S_S800000 (constantI S_ 32 0#32)))
          (addi (src ei) (broadcastInDim S800000 ![] bcast_S_S800000 (constantI S_ 32 100000#32))) (src ei))))

/-! ## Region 0's entry contents -/

set_option maxHeartbeats 1000000 in
/-- the neighbour sum of the node features is what the first stretch leaves for the first region -/
theorem V1_agg (c : Dev nD) : V1 m ρ c main_v13 = nbrSum (m ((c : Thread nD τ).loc main_arg0)) (m ((c : Thread nD τ).loc main_arg1)) := by
  show StableHlo.after hostOps0 (W0 m ρ c) (Proc.devRef .tc main_v13) = _
  after_results
  rfl

/-- an argument no operation of the first stretch writes holds what was launched -/
theorem V1_arg0 (c : Dev nD) : V1 m ρ c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V1_arg4 (c : Dev nD) : V1 m ρ c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- a reshaped vector is the reshape of what was launched -/
theorem V1_v14 (c : Dev nD) : V1 m ρ c main_v14 = shapeCast S1x128 (m ((c : Thread nD τ).loc main_arg3)) shapeCasts_S128_S1x128 := by
  show StableHlo.after hostOps0 (W0 m ρ c) (Proc.devRef .tc main_v14) = _
  after_results
  rfl
theorem V1_v15 (c : Dev nD) : V1 m ρ c main_v15 = shapeCast S1x128 (m ((c : Thread nD τ).loc main_arg5)) shapeCasts_S128_S1x128 := by
  show StableHlo.after hostOps0 (W0 m ρ c) (Proc.devRef .tc main_v15) = _
  after_results
  rfl
theorem V1_v16 (c : Dev nD) : V1 m ρ c main_v16 = shapeCast S1x128 (m ((c : Thread nD τ).loc main_arg6)) shapeCasts_S128_S1x128 := by
  show StableHlo.after hostOps0 (W0 m ρ c) (Proc.devRef .tc main_v16) = _
  after_results
  rfl
theorem V1_v17 (c : Dev nD) : V1 m ρ c main_v17 = shapeCast S1x128 (m ((c : Thread nD τ).loc main_arg7)) shapeCasts_S128_S1x128 := by
  show StableHlo.after hostOps0 (W0 m ρ c) (Proc.devRef .tc main_v17) = _
  after_results
  rfl
theorem V1_v18 (c : Dev nD) : V1 m ρ c main_v18 = shapeCast S1x128 (m ((c : Thread nD τ).loc main_arg8)) shapeCasts_S128_S1x128 := by
  show StableHlo.after hostOps0 (W0 m ρ c) (Proc.devRef .tc main_v18) = _
  after_results
  rfl
theorem V1_v19 (c : Dev nD) : V1 m ρ c main_v19 = shapeCast S1x128 (m ((c : Thread nD τ).loc main_arg9)) shapeCasts_S128_S1x128 := by
  show StableHlo.after hostOps0 (W0 m ρ c) (Proc.devRef .tc main_v19) = _
  after_results
  rfl

/-! ## Across the first region -/

/-- the source ids and the destination ids, as the first stretch leaves them -/
theorem W1_v1 (c : Dev nD) : W1 m ρ c (Proc.devRef .tc main_v1) = src (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dst (m ((c : Thread nD τ).loc main_arg1)) := by
  show StableHlo.after hostOps0 (W0 m ρ c) (Proc.devRef .tc main_v3) = _
  after_results
  rfl
/-- the first region writes neither -/
theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)

/-- an argument that neither the first stretch nor the first region writes holds what was launched -/
theorem W2_arg10 (c : Dev nD) : W2 m ρ c (Proc.devRef .tc main_arg10) = m ((c : Thread nD τ).loc main_arg10) :=
  (W2_of_ne m ρ c main_arg10 (by decide)).trans (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg11 (c : Dev nD) : W2 m ρ c (Proc.devRef .tc main_arg11) = m ((c : Thread nD τ).loc main_arg11) :=
  (W2_of_ne m ρ c main_arg11 (by decide)).trans (StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg12 (c : Dev nD) : W2 m ρ c (Proc.devRef .tc main_arg12) = m ((c : Thread nD τ).loc main_arg12) :=
  (W2_of_ne m ρ c main_arg12 (by decide)).trans (StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg13 (c : Dev nD) : W2 m ρ c (Proc.devRef .tc main_arg13) = m ((c : Thread nD τ).loc main_arg13) :=
  (W2_of_ne m ρ c main_arg13 (by decide)).trans (StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg14 (c : Dev nD) : W2 m ρ c (Proc.devRef .tc main_arg14) = m ((c : Thread nD τ).loc main_arg14) :=
  (W2_of_ne m ρ c main_arg14 (by decide)).trans (StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg15 (c : Dev nD) : W2 m ρ c (Proc.devRef .tc main_arg15) = m ((c : Thread nD τ).loc main_arg15) :=
  (W2_of_ne m ρ c main_arg15 (by decide)).trans (StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg16 (c : Dev nD) : W2 m ρ c (Proc.devRef .tc main_arg16) = m ((c : Thread nD τ).loc main_arg16) :=
  (W2_of_ne m ρ c main_arg16 (by decide)).trans (StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg17 (c : Dev nD) : W2 m ρ c (Proc.devRef .tc main_arg17) = m ((c : Thread nD τ).loc main_arg17) :=
  (W2_of_ne m ρ c main_arg17 (by decide)).trans (StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg18 (c : Dev nD) : W2 m ρ c (Proc.devRef .tc main_arg18) = m ((c : Thread nD τ).loc main_arg18) :=
  (W2_of_ne m ρ c main_arg18 (by decide)).trans (StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem W2_arg19 (c : Dev nD) : W2 m ρ c (Proc.devRef .tc main_arg19) = m ((c : Thread nD τ).loc main_arg19) :=
  (W2_of_ne m ρ c main_arg19 (by decide)).trans (StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Region 1's entry contents -/

set_option maxHeartbeats 1000000 in
/-- the neighbour sum of the first region's result is what the second stretch leaves for the second region -/
theorem V3_agg (c : Dev nD) : V3 m ρ c main_v30 = nbrSum (V2 m ρ c main_v20) (m ((c : Thread nD τ).loc main_arg1)) := by
  show StableHlo.after hostOps1 (W2 m ρ c) (Proc.devRef .tc main_v30) = _
  after_results
  rw [W2_v1, W2_v3]
  rfl

/-- the second stretch does not write the first region's result -/
theorem V3_v20 (c : Dev nD) : V3 m ρ c main_v20 = V2 m ρ c main_v20 :=
  StableHlo.after_of_forall_not_mem (b := Proc.devRef .tc main_v20) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V3_arg10 (c : Dev nD) : V3 m ρ c main_arg10 = m ((c : Thread nD τ).loc main_arg10) :=
  (StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg10 m ρ c)
theorem V3_arg12 (c : Dev nD) : V3 m ρ c main_arg12 = m ((c : Thread nD τ).loc main_arg12) :=
  (StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg12 m ρ c)
theorem V3_arg18 (c : Dev nD) : V3 m ρ c main_arg18 = m ((c : Thread nD τ).loc main_arg18) :=
  (StableHlo.after_of_forall_not_mem (b := Proc.devRef .tc main_arg18) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg18 m ρ c)
theorem V3_v31 (c : Dev nD) : V3 m ρ c main_v31 = shapeCast S1x128 (m ((c : Thread nD τ).loc main_arg11)) shapeCasts_S128_S1x128 := by
  show StableHlo.after hostOps1 (W2 m ρ c) (Proc.devRef .tc main_v31) = _
  after_results
  rw [W2_arg11]
  rfl
theorem V3_v32 (c : Dev nD) : V3 m ρ c main_v32 = shapeCast S1x128 (m ((c : Thread nD τ).loc main_arg13)) shapeCasts_S128_S1x128 := by
  show StableHlo.after hostOps1 (W2 m ρ c) (Proc.devRef .tc main_v32) = _
  after_results
  rw [W2_arg13]
  rfl
theorem V3_v33 (c : Dev nD) : V3 m ρ c main_v33 = shapeCast S1x128 (m ((c : Thread nD τ).loc main_arg14)) shapeCasts_S128_S1x128 := by
  show StableHlo.after hostOps1 (W2 m ρ c) (Proc.devRef .tc main_v33) = _
  after_results
  rw [W2_arg14]
  rfl
theorem V3_v34 (c : Dev nD) : V3 m ρ c main_v34 = shapeCast S1x128 (m ((c : Thread nD τ).loc main_arg15)) shapeCasts_S128_S1x128 := by
  show StableHlo.after hostOps1 (W2 m ρ c) (Proc.devRef .tc main_v34) = _
  after_results
  rw [W2_arg15]
  rfl
theorem V3_v35 (c : Dev nD) : V3 m ρ c main_v35 = shapeCast S1x128 (m ((c : Thread nD τ).loc main_arg16)) shapeCasts_S128_S1x128 := by
  show StableHlo.after hostOps1 (W2 m ρ c) (Proc.devRef .tc main_v35) = _
  after_results
  rw [W2_arg16]
  rfl
theorem V3_v36 (c : Dev nD) : V3 m ρ c main_v36 = shapeCast S1x128 (m ((c : Thread nD τ).loc main_arg17)) shapeCasts_S128_S1x128 := by
  show StableHlo.after hostOps1 (W2 m ρ c) (Proc.devRef .tc main_v36) = _
  after_results
  rw [W2_arg17]
  rfl
theorem V3_v37 (c : Dev nD) : V3 m ρ c main_v37 = shapeCast S1x64 (m ((c : Thread nD τ).loc main_arg19)) shapeCasts_S64_S1x64 := by
  show StableHlo.after hostOps1 (W2 m ρ c) (Proc.devRef .tc main_v37) = _
  after_results
  rw [W2_arg19]
  rfl

/-! ## The two regions' result arrays in the fold -/

theorem V2_v20 (c : Dev nD) : V2 m ρ c main_v20 = (dat0 (V1 m ρ) c).arrAt 10 cfg0.N := W2_arr m ρ c 10
theorem W4_v38 (c : Dev nD) : W4 m ρ c (Proc.devRef .tc main_v38) = (dat1 (V3 m ρ) c).arrAt 12 cfg1.N := W4_arr m ρ c 12

/-! ## A reshaped bias row read as a vector -/

theorem row_reshape128 (b : (⟨S128, .f32⟩ : BufTy).Contents (Elt Ideal)) : LayerAt.row (shapeCast S1x128 b shapeCasts_S128_S1x128) = Gin.vec b := by
  funext q
  exact shapeCast_a_1a_apply b shapeCasts_S128_S1x128 0 q
theorem row_reshape64 (b : (⟨S64, .f32⟩ : BufTy).Contents (Elt Ideal)) : LayerAt.row (shapeCast S1x64 b shapeCasts_S64_S1x64) = Gin.vec b := by
  funext q
  exact shapeCast_a_1a_apply b shapeCasts_S64_S1x64 0 q

end Cert.KernelIdeal.KHost

end
-- ==== Proof.KValue.lean ====
/-
  The idealized kernel's result array, as one function of the launched arrays.

  The program is two regions among host stretches. The first stretch leaves the neighbour sums of the features and each
  parameter vector of the first block as a [1, 128] row; the first region's result array then holds the first block of
  those arrays (Proof/Region0.lean). The second stretch leaves the neighbour sums of that result along the same edges
  and the second block's parameter vectors as rows; the second region's result array, which is the program's result,
  holds the second block of those (Proof/Region1.lean). A vector reshaped to a row and read as a row is the vector, so
  both are the specification's blocks of the launched arrays themselves, the neighbour sum applied twice and never
  opened.
-/
import proofs.«124534_j28956669510067_1_alg».proof.Proof.KRun
import proofs.«124534_j28956669510067_1_alg».proof.Proof.Region0
import proofs.«124534_j28956669510067_1_alg».proof.Proof.Region1
import proofs.«124534_j28956669510067_1_alg».proof.Proof.KHost
import proofs.«124534_j28956669510067_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KValue
open Cert.KernelIdeal Cert.KernelIdeal.Gen Idealize.ShloMosaic Idealize.ShloMosaic.TcCoe Idealize.ShloMosaic.ValueIdx
open Idealize.SL.Sem Cert.Bridge Cert.Bridge.LayerAt

variable (m : (ℓ : Loc nD τ sig) → Buf (Elt Ideal) ℓ) (ρ : Dev nD → PrngReg)

/-- The first block of the launched arrays: the neighbour sums of the features, the features, the first block's
    weights and parameter vectors. -/
def hidden (c : Dev nD) : S100000x128.Idx → EReal :=
  Gin.arr (Gin.block1 (mat (KHost.nbrSum (m ((c : Thread nD τ).loc main_arg0)) (m ((c : Thread nD τ).loc main_arg1)))) (mat (m ((c : Thread nD τ).loc main_arg0)))
    (mat (m ((c : Thread nD τ).loc main_arg2))) (Gin.vec (m ((c : Thread nD τ).loc main_arg3))) (mat (m ((c : Thread nD τ).loc main_arg4))) (Gin.vec (m ((c : Thread nD τ).loc main_arg5)))
    (Gin.vec (m ((c : Thread nD τ).loc main_arg6))) (Gin.vec (m ((c : Thread nD τ).loc main_arg7))) (Gin.vec (m ((c : Thread nD τ).loc main_arg8))) (Gin.vec (m ((c : Thread nD τ).loc main_arg9))))

/-- The second block over the first block's rows: their neighbour sums along the same edges, the rows themselves, the
    second block's weights and parameter vectors, the output layer. -/
def result (c : Dev nD) : S100000x64.Idx → EReal :=
  Gin.arr (Gin.block2 (mat (KHost.nbrSum (hidden m c) (m ((c : Thread nD τ).loc main_arg1)))) (mat (hidden m c))
    (mat (m ((c : Thread nD τ).loc main_arg10))) (Gin.vec (m ((c : Thread nD τ).loc main_arg11))) (mat (m ((c : Thread nD τ).loc main_arg12))) (Gin.vec (m ((c : Thread nD τ).loc main_arg13)))
    (Gin.vec (m ((c : Thread nD τ).loc main_arg14))) (Gin.vec (m ((c : Thread nD τ).loc main_arg15))) (Gin.vec (m ((c : Thread nD τ).loc main_arg16))) (Gin.vec (m ((c : Thread nD τ).loc main_arg17)))
    (mat (m ((c : Thread nD τ).loc main_arg18))) (Gin.vec (m ((c : Thread nD τ).loc main_arg19))))

/-- After the first region its result array holds the first block of the launched arrays: the region's arrays are
    what the first host stretch leaves (the neighbour sums, the untouched arguments, each parameter vector as a row). -/
theorem hidden_eq (c : Dev nD) : V2 m ρ c main_v20 = hidden m c := by
  rw [KHost.V2_v20, Region0.array]
  unfold Region0.G hidden
  rw [KHost.V1_agg, KHost.V1_arg0, KHost.V1_arg2, KHost.V1_arg4, KHost.V1_v14, KHost.V1_v15, KHost.V1_v16, KHost.V1_v17,
    KHost.V1_v18, KHost.V1_v19]
  rw [KHost.row_reshape128, KHost.row_reshape128, KHost.row_reshape128, KHost.row_reshape128, KHost.row_reshape128,
    KHost.row_reshape128]

/-- After the second region the program's result array holds the second block over the first block's rows. -/
theorem result_eq (c : Dev nD) : W4 m ρ c (Proc.devRef .tc main_v38) = result m c := by
  rw [KHost.W4_v38, Region1.array]
  unfold Region1.G result
  rw [KHost.V3_agg, KHost.V3_v20, hidden_eq, KHost.V3_arg10, KHost.V3_arg12, KHost.V3_arg18, KHost.V3_v31, KHost.V3_v32,
    KHost.V3_v33, KHost.V3_v34, KHost.V3_v35, KHost.V3_v36, KHost.V3_v37]
  rw [KHost.row_reshape128, KHost.row_reshape128, KHost.row_reshape128, KHost.row_reshape128, KHost.row_reshape128,
    KHost.row_reshape128, KHost.row_reshape64]

/-- THE RUN, READ: every weakly fair execution terminates without a fault, the result array ends at the two blocks of
    the launched arrays, and the arguments end as launched. -/
theorem run : θ_run defs (onTc (τ := τ) (main (F := Ideal))) ⟨m, fun _ => 0, ρ⟩ (fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (result_eq m ρ c), (h c).2⟩) (KRun.run_result m ρ)

end Cert.KernelIdeal.KValue

end
-- ==== Proof.RefBlocks.lean ====
/-
  The reference program's two blocks, entry by entry, are the specification's blocks.

  Each operation of the reference reads at an index from its operands at an index. At a coordinate pair (p, q) the
  composed index maps are coordinate pairs again: a vector spread over the rows is read at q, the left operand of a
  contraction at (p, k) and the right at (k, q). So, stage by stage from the inside out: the hidden rows are the
  neighbour sum plus the rows fed in; the hidden layer is the specification's clamped layer of them; the perceptron is
  the unclamped layer of that; the normalisation centres, scales by the reciprocal root of the offset variance, and
  applies the affine map; the first block clamps at the zero word's value and the second goes through the output
  layer. The two neighbour sums are carried as they stand and never opened; no constant is evaluated.
-/
import proofs.«124534_j28956669510067_1_alg».proof.Proof.Gen.ReferenceIdeal.Read
import proofs.«124534_j28956669510067_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Bridge Idealize.ShloMosaic Idealize.ShloMosaic.ValueIdx

/-! The generated index maps at a coordinate pair are coordinate pairs (by cases on the axis). -/
local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))

variable (x0 : (⟨S100000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 x14 x15 x16 x17 : (⟨S128, .f32⟩ : BufTy).Contents (Elt Ideal))
  (x18 : (⟨S128x64, .f32⟩ : BufTy).Contents (Elt Ideal)) (x19 : (⟨S64, .f32⟩ : BufTy).Contents (Elt Ideal))
  (p : Fin 100000) (q k : Fin 128)

/-! ## The first block -/

/-- A vector spread over the rows: entry (p, q) of the spread is entry q of the vector. -/
theorem v17_at : val_main_v17 (F := Ideal) x3 (ix2 p q) = Gin.vec x3 q := by
  rw [val_main_v17_apply, val_main_v16_apply]; exact congrArg x3 (by idx1)
theorem v22_at : val_main_v22 (F := Ideal) x5 (ix2 p q) = Gin.vec x5 q := by
  rw [val_main_v22_apply, val_main_v21_apply]; exact congrArg x5 (by idx1)
theorem v25_at : val_main_v25 (F := Ideal) x8 (ix2 p q) = Gin.vec x8 q := by
  rw [val_main_v25_apply, val_main_v24_apply]; exact congrArg x8 (by idx1)
theorem v34_at : val_main_v34 (F := Ideal) x6 (ix2 p q) = Gin.vec x6 q := by
  rw [val_main_v34_apply, val_main_v33_apply]; exact congrArg x6 (by idx1)
theorem v37_at : val_main_v37 (F := Ideal) x7 (ix2 p q) = Gin.vec x7 q := by
  rw [val_main_v37_apply, val_main_v36_apply]; exact congrArg x7 (by idx1)

/-- The reciprocal root of the offset variance, spread over the rows. -/
theorem v31_at : val_main_v31 (F := Ideal) x9 (ix2 p q) = Ideal.rsqrt (Gin.vec x9 q + Gin.eps) := by
  have e : idx_main_v30 (idx_main_v31 (ix2 p q)) = ix1 q := by idx1
  rw [val_main_v31_apply, val_main_v30_apply, e, val_main_v29_apply, val_main_v28_apply, val_main_v27_apply,
    val_main_cst_1_apply, Ideal.hostUnary_rsqrt_def, Ideal.addf_def, Ideal.ofBits_def]

/-- The hidden rows: the neighbour sum plus the node's own features. -/
theorem v14_at : val_main_v14 (F := Ideal) x0 x1 (ix2 p k)
    = LayerAt.mat (val_main_v13 (F := Ideal) x0 x1) p k + LayerAt.mat x0 p k := by
  rw [val_main_v14_apply, Ideal.addf_def]

/-- The hidden layer of the first perceptron. -/
theorem v19_at : val_main_v19 (F := Ideal) x0 x1 x2 x3 (ix2 p k)
    = Spec.layer (fun p k => LayerAt.mat (val_main_v13 (F := Ideal) x0 x1) p k + LayerAt.mat x0 p k) (LayerAt.mat x2) (Gin.vec x3) p k := by
  rw [val_main_v19_apply, val_main_v18_apply, val_main_call0_v0_apply, val_main_call0_cst_apply, val_main_v15_apply, v17_at,
    Ideal.maximumf_def, Ideal.addf_def, Ideal.ofBits_def]
  unfold Spec.layer Spec.head
  refine congrArg (fun s => max (s + Gin.vec x3 k) Spec.floor0) (Finset.sum_congr rfl fun j _ => ?_)
  have el : lidx_main_v15 (ix2 p k) j = ix2 p j := by idx2
  have er : ridx_main_v15 (ix2 p k) j = ix2 j k := by idx2
  rw [el, er, v14_at]

/-- The first perceptron. -/
theorem v23_at : val_main_v23 (F := Ideal) x0 x1 x2 x3 x4 x5 (ix2 p q)
    = Gin.mlp (LayerAt.mat (val_main_v13 (F := Ideal) x0 x1)) (LayerAt.mat x0) (LayerAt.mat x2) (Gin.vec x3) (LayerAt.mat x4) (Gin.vec x5) p q := by
  rw [val_main_v23_apply, val_main_v20_apply, v22_at, Ideal.addf_def]
  unfold Gin.mlp Spec.head
  refine congrArg (fun s => s + Gin.vec x5 q) (Finset.sum_congr rfl fun j _ => ?_)
  have el : lidx_main_v20 (ix2 p q) j = ix2 p j := by idx2
  have er : ridx_main_v20 (ix2 p q) j = ix2 j q := by idx2
  rw [el, er, v19_at]

/-- The first block at an entry. -/
theorem v39_at : val_main_v39 (F := Ideal) x0 x1 x2 x3 x4 x5 x6 x7 x8 x9 (ix2 p q)
    = Gin.block1 (LayerAt.mat (val_main_v13 (F := Ideal) x0 x1)) (LayerAt.mat x0) (LayerAt.mat x2) (Gin.vec x3) (LayerAt.mat x4) (Gin.vec x5)
        (Gin.vec x6) (Gin.vec x7) (Gin.vec x8) (Gin.vec x9) p q := by
  rw [val_main_v39_apply, val_main_v38_apply, val_main_v35_apply, val_main_v32_apply, val_main_v26_apply,
    val_main_call1_v0_apply, val_main_call1_cst_apply, v23_at, v25_at, v31_at, v34_at, v37_at,
    Ideal.maximumf_def, Ideal.addf_def, Ideal.mulf_def, Ideal.mulf_def, Ideal.subf_def, Ideal.ofBits_def]
  rfl

theorem block1_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 x9 : (⟨S128, .f32⟩ : BufTy).Contents (Elt Ideal)) :
    val_main_v39 (F := Ideal) x0 x1 x2 x3 x4 x5 x6 x7 x8 x9
      = Gin.arr (Gin.block1 (LayerAt.mat (val_main_v13 (F := Ideal) x0 x1)) (LayerAt.mat x0) (LayerAt.mat x2) (Gin.vec x3) (LayerAt.mat x4) (Gin.vec x5) (Gin.vec x6) (Gin.vec x7) (Gin.vec x8) (Gin.vec x9)) :=
  Gin.arr_ext _ _ fun p q => v39_at x0 x1 x2 x3 x4 x5 x6 x7 x8 x9 p q

/-! ## The second block -/

theorem v53_at : val_main_v53 (F := Ideal) x11 (ix2 p q) = Gin.vec x11 q := by
  rw [val_main_v53_apply, val_main_v52_apply]; exact congrArg x11 (by idx1)
theorem v58_at : val_main_v58 (F := Ideal) x13 (ix2 p q) = Gin.vec x13 q := by
  rw [val_main_v58_apply, val_main_v57_apply]; exact congrArg x13 (by idx1)
theorem v61_at : val_main_v61 (F := Ideal) x16 (ix2 p q) = Gin.vec x16 q := by
  rw [val_main_v61_apply, val_main_v60_apply]; exact congrArg x16 (by idx1)
theorem v70_at : val_main_v70 (F := Ideal) x14 (ix2 p q) = Gin.vec x14 q := by
  rw [val_main_v70_apply, val_main_v69_apply]; exact congrArg x14 (by idx1)
theorem v73_at : val_main_v73 (F := Ideal) x15 (ix2 p q) = Gin.vec x15 q := by
  rw [val_main_v73_apply, val_main_v72_apply]; exact congrArg x15 (by idx1)
theorem v77_at (r : Fin 64) : val_main_v77 (F := Ideal) x19 (ix2 p r) = Gin.vec x19 r := by
  rw [val_main_v77_apply, val_main_v76_apply]; exact congrArg x19 (by idx1)

/-- The reciprocal root of the second block's offset variance, spread over the rows. -/
theorem v67_at : val_main_v67 (F := Ideal) x17 (ix2 p q) = Ideal.rsqrt (Gin.vec x17 q + Gin.eps) := by
  have e : idx_main_v66 (idx_main_v67 (ix2 p q)) = ix1 q := by idx1
  rw [val_main_v67_apply, val_main_v66_apply, e, val_main_v65_apply, val_main_v64_apply, val_main_v63_apply,
    val_main_cst_5_apply, Ideal.hostUnary_rsqrt_def, Ideal.addf_def, Ideal.ofBits_def]

/-- The second block's hidden rows: the second neighbour sum plus the first block's rows. -/
theorem v50_at : val_main_v50 (F := Ideal) x0 x1 x2 x3 x4 x5 x6 x7 x8 x9 (ix2 p k)
    = LayerAt.mat (val_main_v49 (F := Ideal) x0 x1 x2 x3 x4 x5 x6 x7 x8 x9) p k
      + LayerAt.mat (val_main_v39 (F := Ideal) x0 x1 x2 x3 x4 x5 x6 x7 x8 x9) p k := by
  rw [val_main_v50_apply, Ideal.addf_def]

/-- The hidden layer of the second perceptron. -/
theorem v55_at : val_main_v55 (F := Ideal) x0 x1 x2 x3 x4 x5 x6 x7 x8 x9 x10 x11 (ix2 p k)
    = Spec.layer (fun p k => LayerAt.mat (val_main_v49 (F := Ideal) x0 x1 x2 x3 x4 x5 x6 x7 x8 x9) p k
        + LayerAt.mat (val_main_v39 (F := Ideal) x0 x1 x2 x3 x4 x5 x6 x7 x8 x9) p k) (LayerAt.mat x10) (Gin.vec x11) p k := by
  rw [val_main_v55_apply, val_main_v54_apply, val_main_call2_v0_apply, val_main_call2_cst_apply, val_main_v51_apply, v53_at,
    Ideal.maximumf_def, Ideal.addf_def, Ideal.ofBits_def]
  unfold Spec.layer Spec.head
  refine congrArg (fun s => max (s + Gin.vec x11 k) Spec.floor0) (Finset.sum_congr rfl fun j _ => ?_)
  have el : lidx_main_v51 (ix2 p k) j = ix2 p j := by idx2
  have er : ridx_main_v51 (ix2 p k) j = ix2 j k := by idx2
  rw [el, er, v50_at]

/-- The second perceptron. -/
theorem v59_at : val_main_v59 (F := Ideal) x0 x1 x2 x3 x4 x5 x6 x7 x8 x9 x10 x11 x12 x13 (ix2 p q)
    = Gin.mlp (LayerAt.mat (val_main_v49 (F := Ideal) x0 x1 x2 x3 x4 x5 x6 x7 x8 x9))
        (LayerAt.mat (val_main_v39 (F := Ideal) x0 x1 x2 x3 x4 x5 x6 x7 x8 x9)) (LayerAt.mat x10) (Gin.vec x11) (LayerAt.mat x12) (Gin.vec x13) p q := by
  rw [val_main_v59_apply, val_main_v56_apply, v58_at, Ideal.addf_def]
  unfold Gin.mlp Spec.head
  refine congrArg (fun s => s + Gin.vec x13 q) (Finset.sum_congr rfl fun j _ => ?_)
  have el : lidx_main_v56 (ix2 p q) j = ix2 p j := by idx2
  have er : ridx_main_v56 (ix2 p q) j = ix2 j q := by idx2
  rw [el, er, v55_at]

/-- The second perceptron's output, normalised. -/
theorem v74_at : val_main_v74 (F := Ideal) x0 x1 x2 x3 x4 x5 x6 x7 x8 x9 x10 x11 x12 x13 x14 x15 x16 x17 (ix2 p q)
    = Gin.normed (LayerAt.mat (val_main_v49 (F := Ideal) x0 x1 x2 x3 x4 x5 x6 x7 x8 x9))
        (LayerAt.mat (val_main_v39 (F := Ideal) x0 x1 x2 x3 x4 x5 x6 x7 x8 x9)) (LayerAt.mat x10) (Gin.vec x11) (LayerAt.mat x12) (Gin.vec x13)
        (Gin.vec x14) (Gin.vec x15) (Gin.vec x16) (Gin.vec x17) p q := by
  rw [val_main_v74_apply, val_main_v71_apply, val_main_v68_apply, val_main_v62_apply,
    v59_at, v61_at, v67_at, v70_at, v73_at,
    Ideal.addf_def, Ideal.mulf_def, Ideal.mulf_def, Ideal.subf_def]
  rfl

/-- The program's result at an entry. -/
theorem v78_at (r : Fin 64) : val_main_v78 (F := Ideal) x0 x1 x2 x3 x4 x5 x6 x7 x8 x9 x10 x11 x12 x13 x14 x15 x16 x17 x18 x19 (ix2 p r)
    = Gin.block2 (LayerAt.mat (val_main_v49 (F := Ideal) x0 x1 x2 x3 x4 x5 x6 x7 x8 x9))
        (LayerAt.mat (val_main_v39 (F := Ideal) x0 x1 x2 x3 x4 x5 x6 x7 x8 x9)) (LayerAt.mat x10) (Gin.vec x11) (LayerAt.mat x12) (Gin.vec x13)
        (Gin.vec x14) (Gin.vec x15) (Gin.vec x16) (Gin.vec x17) (LayerAt.mat x18) (Gin.vec x19) p r := by
  rw [val_main_v78_apply, val_main_v75_apply, v77_at, Ideal.addf_def]
  unfold Gin.block2 Spec.head
  refine congrArg (fun s => s + Gin.vec x19 r) (Finset.sum_congr rfl fun j _ => ?_)
  have el : lidx_main_v75 (ix2 p r) j = ix2 p j := by idx2
  have er : ridx_main_v75 (ix2 p r) j = ix2 j r := by idx2
  rw [el, er, v74_at]

theorem out_eq (x0 : (⟨S100000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 x14 x15 x16 x17 : (⟨S128, .f32⟩ : BufTy).Contents (Elt Ideal)) (x18 : (⟨S128x64, .f32⟩ : BufTy).Contents (Elt Ideal)) (x19 : (⟨S64, .f32⟩ : BufTy).Contents (Elt Ideal)) :
    val_main_v78 (F := Ideal) x0 x1 x2 x3 x4 x5 x6 x7 x8 x9 x10 x11 x12 x13 x14 x15 x16 x17 x18 x19
      = Gin.arr (Gin.block2 (LayerAt.mat (val_main_v49 (F := Ideal) x0 x1 x2 x3 x4 x5 x6 x7 x8 x9)) (LayerAt.mat (val_main_v39 (F := Ideal) x0 x1 x2 x3 x4 x5 x6 x7 x8 x9)) (LayerAt.mat x10) (Gin.vec x11) (LayerAt.mat x12) (Gin.vec x13) (Gin.vec x14) (Gin.vec x15) (Gin.vec x16) (Gin.vec x17) (LayerAt.mat x18) (Gin.vec x19)) :=
  Gin.arr_ext _ _ fun p r => v78_at x0 x1 x2 x3 x4 x5 x6 x7 x8 x9 x10 x11 x12 x13 x14 x15 x16 x17 x18 x19 p r

end Cert.ReferenceIdeal.RefValue

end
-- ==== Proof.AggSame.lean ====
/-
  The reference program computes the same neighbour sum.

  The reference's two scatter-adds are, stage by stage, the operations the kernel program's host stretches run: the two
  rows of the edge list, the normalised source ids, a gather at them and a scatter-add at the destination ids into
  zeros. The two programs carry their own copies of the same literal shape records, so each equation is by unfolding
  the reference's small stage definitions; the second sum's operand (the first block's result) is never looked into.
-/
import proofs.«124534_j28956669510067_1_alg».proof.Proof.KHost
import proofs.«124534_j28956669510067_1_alg».proof.Proof.Gen.ReferenceIdeal.Read

noncomputable section

namespace Cert.Bridge.AggSame

open Idealize.ShloMosaic

/-- the reference's first neighbour sum is the kernel program's, of the same node rows along the same edges -/
theorem agg_first (h : (⟨Cert.ReferenceIdeal.S100000x128, .f32⟩ : BufTy).Contents (Elt Ideal)) (ei : (⟨Cert.ReferenceIdeal.S2x800000, .i32⟩ : BufTy).Contents (Elt Ideal)) :
    Cert.ReferenceIdeal.Read.val_main_v13 (F := Ideal) h ei = Cert.KernelIdeal.KHost.nbrSum h ei := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
    Cert.KernelIdeal.KHost.nbrSum Cert.KernelIdeal.KHost.src Cert.KernelIdeal.KHost.dst
  rfl

/-- the reference's second neighbour sum is the kernel program's, of the first block's result along the same edges -/
theorem agg_second (x0 : (⟨Cert.ReferenceIdeal.S100000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 x6 x7 x8 x9 : (⟨Cert.ReferenceIdeal.S128, .f32⟩ : BufTy).Contents (Elt Ideal)) :
    Cert.ReferenceIdeal.Read.val_main_v49 (F := Ideal) x0 x1 x2 x3 x4 x5 x6 x7 x8 x9
      = Cert.KernelIdeal.KHost.nbrSum (Cert.ReferenceIdeal.Read.val_main_v39 (F := Ideal) x0 x1 x2 x3 x4 x5 x6 x7 x8 x9) x1 := by
  unfold Cert.ReferenceIdeal.Read.val_main_v49 Cert.ReferenceIdeal.Read.val_main_v46
  generalize Cert.ReferenceIdeal.Read.val_main_v39 (F := Ideal) x0 x1 x2 x3 x4 x5 x6 x7 x8 x9 = H
  unfold Cert.ReferenceIdeal.Read.val_main_v48 Cert.ReferenceIdeal.Read.val_main_v47
    Cert.ReferenceIdeal.Read.val_main_v45 Cert.ReferenceIdeal.Read.val_main_v44
    Cert.ReferenceIdeal.Read.val_main_v43 Cert.ReferenceIdeal.Read.val_main_v42 Cert.ReferenceIdeal.Read.val_main_v41
    Cert.ReferenceIdeal.Read.val_main_v40 Cert.ReferenceIdeal.Read.val_main_v3 Cert.ReferenceIdeal.Read.val_main_v2
    Cert.ReferenceIdeal.Read.val_main_v1 Cert.ReferenceIdeal.Read.val_main_v0 Cert.ReferenceIdeal.Read.val_main_c_2
    Cert.ReferenceIdeal.Read.val_main_c_3 Cert.ReferenceIdeal.Read.val_main_cst_4
    Cert.KernelIdeal.KHost.nbrSum Cert.KernelIdeal.KHost.src Cert.KernelIdeal.KHost.dst
  rfl

end Cert.Bridge.AggSame

end
-- ==== Proof.lean ====
/-
  The certificate of a two-block graph network tiled over its nodes against its plain reference.

  Both programs compute, for 100000 nodes with 128 features and 800000 edges: the neighbour sum of the features along
  the edges; the first block (hidden rows = neighbour sums + features, a clamped layer, an unclamped layer, evaluation-
  mode batch normalisation, a clamp at zero); the neighbour sum of the first block's rows along the same edges; the
  second block (the same perceptron and normalisation with its own parameters, then the output layer to 64 columns).
  The kernel computes each block in 25 tiles of 4000 rows on the matrix unit; the reference computes it on whole
  arrays. On the extended reals a change of float format is the identity, a matrix product into a zero accumulator and
  the host's contraction are the same sum, and a row of either block depends on the same row of its inputs alone, so
  the tiles of the kernel's result are the rows of the reference's: both results are the specification's two blocks
  (Proof/Spec.lean) of the launched arrays, the neighbour sum carried as one function that is never opened. The two
  sides are the same operations in the same order, so no finiteness of the inputs is used.

  Kernel side: the body's result at an entry (Proof/Block1.lean, Proof/Block2.lean), a region's result array as a whole
  (Proof/Region0.lean, Proof/Region1.lean), the host stretches' results (Proof/KHost.lean), the run with its result
  kept (Proof/KRun.lean), and their composition (Proof/KValue.lean). Reference side: its stages read entry by entry
  (Proof/RefBlocks.lean). The neighbour sum is one function on both sides (Proof/AggSame.lean).
-/
import proofs.«124534_j28956669510067_1_alg».proof.Defs
import proofs.«124534_j28956669510067_1_alg».proof.Proof.Gen.Kernel
import proofs.«124534_j28956669510067_1_alg».proof.Proof.Gen.Kernel.Skeleton
import proofs.«124534_j28956669510067_1_alg».proof.Proof.Gen.Kernel.Launch
import proofs.«124534_j28956669510067_1_alg».proof.Proof.Gen.Kernel.Points
import proofs.«124534_j28956669510067_1_alg».proof.Proof.Gen.Kernel.Frame
import proofs.«124534_j28956669510067_1_alg».proof.Proof.Gen.KernelIdeal
import proofs.«124534_j28956669510067_1_alg».proof.Proof.Gen.KernelIdeal.Skeleton
import proofs.«124534_j28956669510067_1_alg».proof.Proof.Gen.KernelIdeal.Launch
import proofs.«124534_j28956669510067_1_alg».proof.Proof.Gen.KernelIdeal.Points
import proofs.«124534_j28956669510067_1_alg».proof.Proof.Gen.KernelIdeal.Frame
import proofs.«124534_j28956669510067_1_alg».proof.Proof.Gen.ReferenceIdeal
import proofs.«124534_j28956669510067_1_alg».proof.Proof.Gen.ReferenceIdeal.Run
import proofs.«124534_j28956669510067_1_alg».proof.Proof.Gen.ReferenceIdeal.Read
import proofs.«124534_j28956669510067_1_alg».proof.Proof.Gen.Pre_finite_inputs
import proofs.«124534_j28956669510067_1_alg».proof.Proof.KValue
import proofs.«124534_j28956669510067_1_alg».proof.Proof.RefBlocks
import proofs.«124534_j28956669510067_1_alg».proof.Proof.AggSame
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are the specification's two blocks of the same
    launched arrays: the reference's last stage is the second block over its first block's rows and their neighbour
    sums, its first block is the first block over the features and their neighbour sums, and the neighbour sum is the
    function the kernel program applies. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19⟩ := hagree c
  rw [Cert.ReferenceIdeal.Read.val_main_v78_eq, Cert.ReferenceIdeal.RefValue.out_eq, Cert.Bridge.AggSame.agg_second,
    Cert.ReferenceIdeal.RefValue.block1_eq, Cert.Bridge.AggSame.agg_first,
    e0, e1, e2, e3, e4, e5, e6, e7, e8, e9, e10, e11, e12, e13, e14, e15, e16, e17, e18, e19]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
